-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S64x128 : Shape := ⟨2, ![64, 128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S128x128 .f32) (main_arg5 : FVec F S128x128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_v33

def fn {F : FTy → Type} [FloatOps F] (main_arg0 : FVec F S524288x64 .f32) (main_arg1 : FVec F S64x128 .f32) (main_arg2 : FVec F S128x128 .f32) (main_arg3 : FVec F S128x128 .f32) (main_arg4 : FVec F S128x128 .f32) (main_arg5 : FVec F S128x128 .f32) (main_arg6 : FVec F S128x16 .f32) (main_arg7 : FVec F S16 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S524288x64 : Shape := ⟨2, ![524288, 64]⟩
abbrev S64x128 : Shape := ⟨2, ![64, 128]⟩
abbrev S128x128 : Shape := ⟨2, ![128, 128]⟩
abbrev S128x16 : Shape := ⟨2, ![128, 16]⟩
abbrev S16 : Shape := ⟨1, ![16]⟩
abbrev S262144x128 : Shape := ⟨2, ![262144, 128]⟩
abbrev S_ : Shape := ⟨0, ![]⟩
abbrev S64x256 : Shape := ⟨2, ![64, 256]⟩
abbrev S128x256 : Shape := ⟨2, ![128, 256]⟩
abbrev S256x256 : Shape := ⟨2, ![256, 256]⟩
abbrev S128x32 : Shape := ⟨2, ![128, 32]⟩
abbrev S256x32 : Shape := ⟨2, ![256, 32]⟩
abbrev S32 : Shape := ⟨1, ![32]⟩
abbrev S1x32 : Shape := ⟨2, ![1, 32]⟩
abbrev S65536x128 : Shape := ⟨2, ![65536, 128]⟩
abbrev S4096x128 : Shape := ⟨2, ![4096, 128]⟩
abbrev S1024x128 : Shape := ⟨2, ![1024, 128]⟩
abbrev S4096x256 : Shape := ⟨2, ![4096, 256]⟩
abbrev S4096x32 : Shape := ⟨2, ![4096, 32]⟩
abbrev S524288x16 : Shape := ⟨2, ![524288, 16]⟩

abbrev nBuf : Space → Nat
  | .hbm => 49
  | .vmem => 11
  | .smem => 0
  | _ => 0

abbrev bufTy : (tb : Table) → Fin (tcTables nBuf tb) → BufTy
  | .hbm, ⟨0, _⟩ => ⟨S524288x64, .f32⟩
  | .hbm, ⟨1, _⟩ => ⟨S64x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x16, .f32⟩
  | .hbm, ⟨7, _⟩ => ⟨S16, .f32⟩
  | .hbm, ⟨8, _⟩ => ⟨S262144x128, .f32⟩
  | .hbm, ⟨9, _⟩ => ⟨S_, .f32⟩
  | .hbm, ⟨10, _⟩ => ⟨S64x128, .f32⟩
  | .hbm, ⟨11, _⟩ => ⟨S64x256, .f32⟩
  | .hbm, ⟨12, _⟩ => ⟨S64x256, .f32⟩
  | .hbm, ⟨13, _⟩ => ⟨S128x256, .f32⟩
  | .hbm, ⟨14, _⟩ => ⟨S128x256, .bf16⟩
  | .hbm, ⟨15, _⟩ => ⟨S_, .f32⟩
  | .hbm, ⟨16, _⟩ => ⟨S128x128, .f32⟩
  | .hbm, ⟨17, _⟩ => ⟨S128x256, .f32⟩
  | .hbm, ⟨18, _⟩ => ⟨S128x256, .f32⟩
  | .hbm, ⟨19, _⟩ => ⟨S256x256, .f32⟩
  | .hbm, ⟨20, _⟩ => ⟨S256x256, .bf16⟩
  | .hbm, ⟨21, _⟩ => ⟨S_, .f32⟩
  | .hbm, ⟨22, _⟩ => ⟨S128x128, .f32⟩
  | .hbm, ⟨23, _⟩ => ⟨S128x256, .f32⟩
  | .hbm, ⟨24, _⟩ => ⟨S128x256, .f32⟩
  | .hbm, ⟨25, _⟩ => ⟨S256x256, .f32⟩
  | .hbm, ⟨26, _⟩ => ⟨S256x256, .bf16⟩
  | .hbm, ⟨27, _⟩ => ⟨S_, .f32⟩
  | .hbm, ⟨28, _⟩ => ⟨S128x128, .f32⟩
  | .hbm, ⟨29, _⟩ => ⟨S128x256, .f32⟩
  | .hbm, ⟨30, _⟩ => ⟨S128x256, .f32⟩
  | .hbm, ⟨31, _⟩ => ⟨S256x256, .f32⟩
  | .hbm, ⟨32, _⟩ => ⟨S256x256, .bf16⟩
  | .hbm, ⟨33, _⟩ => ⟨S_, .f32⟩
  | .hbm, ⟨34, _⟩ => ⟨S128x128, .f32⟩
  | .hbm, ⟨35, _⟩ => ⟨S128x256, .f32⟩
  | .hbm, ⟨36, _⟩ => ⟨S128x256, .f32⟩
  | .hbm, ⟨37, _⟩ => ⟨S256x256, .f32⟩
  | .hbm, ⟨38, _⟩ => ⟨S256x256, .bf16⟩
  | .hbm, ⟨39, _⟩ => ⟨S_, .f32⟩
  | .hbm, ⟨40, _⟩ => ⟨S128x16, .f32⟩
  | .hbm, ⟨41, _⟩ => ⟨S128x32, .f32⟩
  | .hbm, ⟨42, _⟩ => ⟨S128x32, .f32⟩
  | .hbm, ⟨43, _⟩ => ⟨S256x32, .f32⟩
  | .hbm, ⟨44, _⟩ => ⟨S256x32, .bf16⟩
  | .hbm, ⟨45, _⟩ => ⟨S32, .f32⟩
  | .hbm, ⟨46, _⟩ => ⟨S1x32, .f32⟩
  | .hbm, ⟨47, _⟩ => ⟨S65536x128, .f32⟩
  | .hbm, ⟨48, _⟩ => ⟨S524288x16, .f32⟩
  | .local _ .vmem, ⟨0, _⟩ => ⟨S4096x128, .f32⟩
  | .local _ .vmem, ⟨1, _⟩ => ⟨S4096x128, .f32⟩
  | .local _ .vmem, ⟨2, _⟩ => ⟨S128x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x32, .bf16⟩
  | .local _ .vmem, ⟨8, _⟩ => ⟨S1x32, .f32⟩
  | .local _ .vmem, ⟨9, _⟩ => ⟨S1024x128, .f32⟩
  | .local _ .vmem, ⟨10, _⟩ => ⟨S1024x128, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S524288x64_S262144x128 : S524288x64.ShapeCasts S262144x128
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  bitsLt_bf16_f32 : FTy.bits .bf16 < FTy.bits .f32
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  bcast_S_S128x16 : S_.BroadcastsInDim S128x16 (![] : Fin 0 → Fin S128x16.rank)
  concatenates_S128x16_S128x16_S128x32_d1 : Shape.Concatenates [S128x16, S128x16] S128x32 1
  concatenates_S128x32_S128x32_S256x32_d0 : Shape.Concatenates [S128x32, S128x32] S256x32 0
  concatenates_S16_S16_S32_d0 : Shape.Concatenates [S16, S16] S32 0
  shapeCasts_S32_S1x32 : S32.ShapeCasts S1x32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  shapeCasts_S4096x32_S1024x128 : S4096x32.ShapeCasts S1024x128
  inb_S1024x128_S1024x128_0_0 : ∀ a, (![0, 0] : Fin 2 → Nat) a + S1024x128.size a ≤ S1024x128.size a
  h_S1024x128 : 0 < S1024x128.numel
  shapeCasts_S65536x128_S524288x16 : S65536x128.ShapeCasts S524288x16
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .bf16 = 32 ∨ (Rect.block (s := S256x32) S256x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x64 : Shape := ⟨2, ![524288, 64]⟩
abbrev S64x128 : Shape := ⟨2, ![64, 128]⟩
abbrev S128x128 : Shape := ⟨2, ![128, 128]⟩
abbrev S128x16 : Shape := ⟨2, ![128, 16]⟩
abbrev S16 : Shape := ⟨1, ![16]⟩
abbrev S524288x128 : Shape := ⟨2, ![524288, 128]⟩
abbrev S_ : Shape := ⟨0, ![]⟩
abbrev S524288x16 : Shape := ⟨2, ![524288, 16]⟩
abbrev S1x16 : Shape := ⟨2, ![1, 16]⟩

abbrev nBuf : Space → Nat
  | .hbm => 32
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S64x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x16, .f32⟩
  | .hbm, ⟨7, _⟩ => ⟨S16, .f32⟩
  | .hbm, ⟨8, _⟩ => ⟨S524288x128, .f32⟩
  | .hbm, ⟨9, _⟩ => ⟨S_, .f32⟩
  | .hbm, ⟨10, _⟩ => ⟨S524288x128, .f32⟩
  | .hbm, ⟨11, _⟩ => ⟨S524288x128, .f32⟩
  | .hbm, ⟨12, _⟩ => ⟨S524288x128, .f32⟩
  | .hbm, ⟨13, _⟩ => ⟨S_, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288x128, .f32⟩
  | .hbm, ⟨19, _⟩ => ⟨S524288x128, .f32⟩
  | .hbm, ⟨20, _⟩ => ⟨S524288x128, .f32⟩
  | .hbm, ⟨21, _⟩ => ⟨S_, .f32⟩
  | .hbm, ⟨22, _⟩ => ⟨S524288x128, .f32⟩
  | .hbm, ⟨23, _⟩ => ⟨S524288x128, .f32⟩
  | .hbm, ⟨24, _⟩ => ⟨S524288x128, .f32⟩
  | .hbm, ⟨25, _⟩ => ⟨S_, .f32⟩
  | .hbm, ⟨26, _⟩ => ⟨S524288x128, .f32⟩
  | .hbm, ⟨27, _⟩ => ⟨S524288x128, .f32⟩
  | .hbm, ⟨28, _⟩ => ⟨S524288x16, .f32⟩
  | .hbm, ⟨29, _⟩ => ⟨S1x16, .f32⟩
  | .hbm, ⟨30, _⟩ => ⟨S524288x16, .f32⟩
  | .hbm, ⟨31, _⟩ => ⟨S524288x16, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_call1_cst : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_call2_cst : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_call3_cst : Ref sig .tc := ⟨.hbm, 21, rfl⟩
abbrev main_call3_v0 : Ref sig .tc := ⟨.hbm, 22, rfl⟩
abbrev main_v7 : Ref sig .tc := ⟨.hbm, 23, rfl⟩
abbrev main_v8 : Ref sig .tc := ⟨.hbm, 24, rfl⟩
abbrev main_call4_cst : Ref sig .tc := ⟨.hbm, 25, rfl⟩
abbrev main_call4_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S524288x128 : S_.BroadcastsInDim S524288x128 (![] : Fin 0 → Fin S524288x128.rank)
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  dot_S524288x64_S64x128_S524288x128_1_0_0_1_n_n_wf : DotDims.WF S524288x64 S64x128 S524288x128 [1] [0] [0] [1] [] []
  dot_S524288x128_S128x128_S524288x128_1_0_0_1_n_n_wf : DotDims.WF S524288x128 S128x128 S524288x128 [1] [0] [0] [1] [] []
  dot_S524288x128_S128x16_S524288x16_1_0_0_1_n_n_wf : DotDims.WF S524288x128 S128x16 S524288x16 [1] [0] [0] [1] [] []

variable [Facts₀]

def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x128_S128x16_S524288x16_1_0_0_1_n_n : DotDims S524288x128 S128x16 S524288x16 where
  lhsContracting := [1]
  rhsContracting := [0]
  lhsNonContracting := [0]
  rhsNonContracting := [1]
  lhsBatch := []
  rhsBatch := []
  wf := dot_S524288x128_S128x16_S524288x16_1_0_0_1_n_n_wf

class Facts : Prop extends Facts₀ where

variable [Facts]
-- ==== Proof.MlpSpec.lean ====
/-
  The mathematics of the multilayer perceptron on one row, over the extended reals.

  A dense layer sends a row `v` to `j ↦ ∑ k, v k * W k j`; the activation is `max · 0`.  The network is six
  dense layers, the first five each followed by the activation, and a bias added at the end.

  Two rows can be run through the network at once: put them side by side (`Fin.append`) and replace each weight matrix
  `W` by the block-diagonal matrix `[[W, 0], [0, W]]`.  The off-diagonal blocks contribute `v k * 0 = 0` to every sum,
  and `0` is neutral for `+` on the extended reals, so each layer of the doubled network is the two rows' layers side
  by side — at every extended real, infinite entries included: no finiteness is used.
-/
import Idealize.ShloMosaic.Lib.ValueIdx

noncomputable section

namespace Cert.MLP

open scoped BigOperators

variable {K J : ℕ}

/-- A dense layer applied to a row. -/
def dense (W : Fin K → Fin J → EReal) (v : Fin K → EReal) : Fin J → EReal := fun j => ∑ k, v k * W k j

/-- The activation `max · 0`, entry by entry. -/
def act (v : Fin J → EReal) : Fin J → EReal := fun j => max (v j) 0

/-- The block-diagonal matrix `[[W, 0], [0, W]]`. -/
def diag2 (W : Fin K → Fin J → EReal) : Fin (K + K) → Fin (J + J) → EReal := fun c j =>
  Fin.addCases (fun k => Fin.addCases (fun j0 => W k j0) (fun _ => 0) j)
    (fun k => Fin.addCases (fun _ => 0) (fun j1 => W k j1) j) c

theorem diag2_ll (W : Fin K → Fin J → EReal) (k : Fin K) (j : Fin J) :
    diag2 W (Fin.castAdd K k) (Fin.castAdd J j) = W k j := by
  simp only [diag2, Fin.addCases_left]
theorem diag2_lr (W : Fin K → Fin J → EReal) (k : Fin K) (j : Fin J) :
    diag2 W (Fin.castAdd K k) (Fin.natAdd J j) = 0 := by
  simp only [diag2, Fin.addCases_left, Fin.addCases_right]
theorem diag2_rl (W : Fin K → Fin J → EReal) (k : Fin K) (j : Fin J) :
    diag2 W (Fin.natAdd K k) (Fin.castAdd J j) = 0 := by
  simp only [diag2, Fin.addCases_left, Fin.addCases_right]
theorem diag2_rr (W : Fin K → Fin J → EReal) (k : Fin K) (j : Fin J) :
    diag2 W (Fin.natAdd K k) (Fin.natAdd J j) = W k j := by
  simp only [diag2, Fin.addCases_right]

/-- A dense layer with the block-diagonal matrix, on two rows side by side, is the two rows' layers side by side:
    the zero blocks add `v k * 0 = 0`. -/
theorem dense_diag2 (W : Fin K → Fin J → EReal) (u v : Fin K → EReal) :
    dense (diag2 W) (Fin.append u v) = Fin.append (dense W u) (dense W v) := by
  funext j
  unfold dense
  rw [Fin.sum_univ_add]
  induction j using Fin.addCases with
  | left j0 =>
    simp only [Fin.append_left, Fin.append_right, diag2_ll, diag2_rl, mul_zero, Finset.sum_const_zero, add_zero]
  | right j1 =>
    simp only [Fin.append_left, Fin.append_right, diag2_lr, diag2_rr, mul_zero, Finset.sum_const_zero, zero_add]

/-- The activation of two rows side by side. -/
theorem act_append (u v : Fin J → EReal) : act (Fin.append u v) = Fin.append (act u) (act v) := by
  funext j
  induction j using Fin.addCases with
  | left j0 => simp only [act, Fin.append_left]
  | right j1 => simp only [act, Fin.append_right]

/-- The network on one row: five activated dense layers, a last dense layer, the bias. -/
def net {d0 d1 d2 d3 d4 d5 d6 : ℕ} (W0 : Fin d0 → Fin d1 → EReal) (W1 : Fin d1 → Fin d2 → EReal)
    (W2 : Fin d2 → Fin d3 → EReal) (W3 : Fin d3 → Fin d4 → EReal) (W4 : Fin d4 → Fin d5 → EReal)
    (W5 : Fin d5 → Fin d6 → EReal) (b : Fin d6 → EReal) (x : Fin d0 → EReal) : Fin d6 → EReal := fun o =>
  dense W5 (act (dense W4 (act (dense W3 (act (dense W2 (act (dense W1 (act (dense W0 x)))))))))) o + b o

/-- The doubled network on two rows side by side is the network on each row, side by side. -/
theorem net_diag2 {d0 d1 d2 d3 d4 d5 d6 : ℕ} (W0 : Fin d0 → Fin d1 → EReal) (W1 : Fin d1 → Fin d2 → EReal)
    (W2 : Fin d2 → Fin d3 → EReal) (W3 : Fin d3 → Fin d4 → EReal) (W4 : Fin d4 → Fin d5 → EReal)
    (W5 : Fin d5 → Fin d6 → EReal) (b : Fin d6 → EReal) (x y : Fin d0 → EReal) :
    net (diag2 W0) (diag2 W1) (diag2 W2) (diag2 W3) (diag2 W4) (diag2 W5) (Fin.append b b) (Fin.append x y)
      = Fin.append (net W0 W1 W2 W3 W4 W5 b x) (net W0 W1 W2 W3 W4 W5 b y) := by
  funext o
  simp only [net, dense_diag2, act_append]
  induction o using Fin.addCases with
  | left o => simp only [Fin.append_left, net]
  | right o => simp only [Fin.append_right, net]

/-- Two rows side by side, read at position `J * s + o`: row `s` at `o`. -/
theorem append_at {α : Type} (u v : Fin J → α) (q : Fin (J + J)) (s : ℕ) (o : Fin J) (hs : s < 2)
    (hq : q.val = J * s + o.val) : Fin.append u v q = if s = 0 then u o else v o := by
  rcases Nat.lt_succ_iff_lt_or_eq.mp hs with h | h
  · have h0 : s = 0 := by omega
    subst h0
    have e : q = Fin.castAdd J o := Fin.ext (by simp only [Fin.val_castAdd]; omega)
    rw [e, Fin.append_left, if_pos rfl]
  · subst h
    have e : q = Fin.natAdd J o := Fin.ext (by simp only [Fin.val_natAdd]; omega)
    rw [e, Fin.append_right, if_neg (by decide)]

/-! ## Arrays as matrices, rows and vectors -/

open Idealize.ShloMosaic Idealize.ShloMosaic.ValueIdx

/-- A rank-2 array as a matrix. -/
def mat {K J : ℕ} (A : (⟨2, ![K, J]⟩ : Shape).Idx → EReal) : Fin K → Fin J → EReal := fun k j => A (ix2 k j)

/-- Row `n` of a rank-2 array. -/
def row {N K : ℕ} (X : (⟨2, ![N, K]⟩ : Shape).Idx → EReal) (n : Fin N) : Fin K → EReal := fun k => X (ix2 n k)

/-- A rank-1 array as a vector. -/
def vec1 {J : ℕ} (b : (⟨1, ![J]⟩ : Shape).Idx → EReal) : Fin J → EReal := fun o => b (ix1 o)

/-- THE RESULT both programs compute: entry `(n, o)` is the network's output `o` on row `n` of `X`. -/
def Gout (X : (⟨2, ![524288, 64]⟩ : Shape).Idx → EReal) (A0 : (⟨2, ![64, 128]⟩ : Shape).Idx → EReal)
    (A1 A2 A3 A4 : (⟨2, ![128, 128]⟩ : Shape).Idx → EReal) (A5 : (⟨2, ![128, 16]⟩ : Shape).Idx → EReal)
    (b : (⟨1, ![16]⟩ : Shape).Idx → EReal) : (⟨2, ![524288, 16]⟩ : Shape).Idx → EReal := fun i =>
  net (mat A0) (mat A1) (mat A2) (mat A3) (mat A4) (mat A5) (vec1 b) (row X ⟨(i 0).val, (i 0).isLt⟩) ⟨(i 1).val, (i 1).isLt⟩

theorem Gout_apply (X : (⟨2, ![524288, 64]⟩ : Shape).Idx → EReal) (A0 : (⟨2, ![64, 128]⟩ : Shape).Idx → EReal)
    (A1 A2 A3 A4 : (⟨2, ![128, 128]⟩ : Shape).Idx → EReal) (A5 : (⟨2, ![128, 16]⟩ : Shape).Idx → EReal)
    (b : (⟨1, ![16]⟩ : Shape).Idx → EReal) (n : Fin 524288) (o : Fin 16) :
    Gout X A0 A1 A2 A3 A4 A5 b (ix2 n o) = net (mat A0) (mat A1) (mat A2) (mat A3) (mat A4) (mat A5) (vec1 b) (row X n) o := rfl

end Cert.MLP

end
-- ==== Proof.RefValue.lean ====
/-
  The reference program's result is the network applied row by row.

  Read one operation at a time, each of the reference's matrix products at `(n, j)` is the sum over `k` of the left
  operand at `(n, k)` times the right at `(k, j)`, each `maximum` with the zero splat is the activation, and the last
  line adds the bias at column `o`: entry `(n, o)` of the result is the network's output `o` on row `n` of the input.
-/
import proofs.«179753_j41927470743708_2_alg».proof.Proof.Gen.ReferenceIdeal.Read
import proofs.«179753_j41927470743708_2_alg».proof.Proof.MlpSpec

noncomputable section

namespace Cert.MLP.RefValue

open Cert.ReferenceIdeal Cert.ReferenceIdeal.Gen Cert.ReferenceIdeal.Read Idealize.ShloMosaic Idealize.ShloMosaic.ValueIdx Cert.MLP

/-! ## The operand indices of the six matrix products -/

theorem lidx0 (n : Fin 524288) (j : Fin 128) (k : Fin 64) : lidx_main_v0 (ix2 n j) k = ix2 n k :=
  funext fun a => Fin.ext (by match a with | ⟨0, _⟩ => rfl | ⟨1, _⟩ => rfl)
theorem ridx0 (n : Fin 524288) (j : Fin 128) (k : Fin 64) : ridx_main_v0 (ix2 n j) k = ix2 k j :=
  funext fun a => Fin.ext (by match a with | ⟨0, _⟩ => rfl | ⟨1, _⟩ => rfl)
theorem lidx2 (n : Fin 524288) (j : Fin 128) (k : Fin 128) : lidx_main_v2 (ix2 n j) k = ix2 n k :=
  funext fun a => Fin.ext (by match a with | ⟨0, _⟩ => rfl | ⟨1, _⟩ => rfl)
theorem ridx2 (n : Fin 524288) (j : Fin 128) (k : Fin 128) : ridx_main_v2 (ix2 n j) k = ix2 k j :=
  funext fun a => Fin.ext (by match a with | ⟨0, _⟩ => rfl | ⟨1, _⟩ => rfl)
theorem lidx4 (n : Fin 524288) (j : Fin 128) (k : Fin 128) : lidx_main_v4 (ix2 n j) k = ix2 n k :=
  funext fun a => Fin.ext (by match a with | ⟨0, _⟩ => rfl | ⟨1, _⟩ => rfl)
theorem ridx4 (n : Fin 524288) (j : Fin 128) (k : Fin 128) : ridx_main_v4 (ix2 n j) k = ix2 k j :=
  funext fun a => Fin.ext (by match a with | ⟨0, _⟩ => rfl | ⟨1, _⟩ => rfl)
theorem lidx6 (n : Fin 524288) (j : Fin 128) (k : Fin 128) : lidx_main_v6 (ix2 n j) k = ix2 n k :=
  funext fun a => Fin.ext (by match a with | ⟨0, _⟩ => rfl | ⟨1, _⟩ => rfl)
theorem ridx6 (n : Fin 524288) (j : Fin 128) (k : Fin 128) : ridx_main_v6 (ix2 n j) k = ix2 k j :=
  funext fun a => Fin.ext (by match a with | ⟨0, _⟩ => rfl | ⟨1, _⟩ => rfl)
theorem lidx8 (n : Fin 524288) (j : Fin 128) (k : Fin 128) : lidx_main_v8 (ix2 n j) k = ix2 n k :=
  funext fun a => Fin.ext (by match a with | ⟨0, _⟩ => rfl | ⟨1, _⟩ => rfl)
theorem ridx8 (n : Fin 524288) (j : Fin 128) (k : Fin 128) : ridx_main_v8 (ix2 n j) k = ix2 k j :=
  funext fun a => Fin.ext (by match a with | ⟨0, _⟩ => rfl | ⟨1, _⟩ => rfl)
theorem lidx10 (n : Fin 524288) (j : Fin 16) (k : Fin 128) : lidx_main_v10 (ix2 n j) k = ix2 n k :=
  funext fun a => Fin.ext (by match a with | ⟨0, _⟩ => rfl | ⟨1, _⟩ => rfl)
theorem ridx10 (n : Fin 524288) (j : Fin 16) (k : Fin 128) : ridx_main_v10 (ix2 n j) k = ix2 k j :=
  funext fun a => Fin.ext (by match a with | ⟨0, _⟩ => rfl | ⟨1, _⟩ => rfl)

/-! ## The zero splats of the five activations -/

theorem zero0 (i : S524288x128.Idx) : val_main_call0_v0 (F := Ideal) i = (0 : EReal) := by
  rw [val_main_call0_v0_apply, val_main_call0_cst_apply]; exact Ideal.ofBits_zero_f32
theorem zero1 (i : S524288x128.Idx) : val_main_call1_v0 (F := Ideal) i = (0 : EReal) := by
  rw [val_main_call1_v0_apply, val_main_call1_cst_apply]; exact Ideal.ofBits_zero_f32
theorem zero2 (i : S524288x128.Idx) : val_main_call2_v0 (F := Ideal) i = (0 : EReal) := by
  rw [val_main_call2_v0_apply, val_main_call2_cst_apply]; exact Ideal.ofBits_zero_f32
theorem zero3 (i : S524288x128.Idx) : val_main_call3_v0 (F := Ideal) i = (0 : EReal) := by
  rw [val_main_call3_v0_apply, val_main_call3_cst_apply]; exact Ideal.ofBits_zero_f32
theorem zero4 (i : S524288x128.Idx) : val_main_call4_v0 (F := Ideal) i = (0 : EReal) := by
  rw [val_main_call4_v0_apply, val_main_call4_cst_apply]; exact Ideal.ofBits_zero_f32

/-! ## Layer by layer -/

theorem layer1 (x0 : (⟨S524288x64, .f32⟩ : BufTy).Contents (Elt Ideal)) (x1 : (⟨S64x128, .f32⟩ : BufTy).Contents (Elt Ideal)) (n : Fin 524288) (j : Fin 128) :
    val_main_v1 (F := Ideal) x0 x1 (ix2 n j) = (act (dense (mat x1) (row x0 n))) j := by
  rw [val_main_v1_apply, val_main_v0_apply, zero0]
  simp only [lidx0, ridx0]
  rfl
theorem layer2 (x0 : (⟨S524288x64, .f32⟩ : BufTy).Contents (Elt Ideal)) (x1 : (⟨S64x128, .f32⟩ : BufTy).Contents (Elt Ideal)) (x2 : (⟨S128x128, .f32⟩ : BufTy).Contents (Elt Ideal)) (n : Fin 524288) (j : Fin 128) :
    val_main_v3 (F := Ideal) x0 x1 x2 (ix2 n j) = (act (dense (mat x2) (act (dense (mat x1) (row x0 n))))) j := by
  rw [val_main_v3_apply, val_main_v2_apply, zero1]
  simp only [lidx2, ridx2, layer1]
  rfl
theorem layer3 (x0 : (⟨S524288x64, .f32⟩ : BufTy).Contents (Elt Ideal)) (x1 : (⟨S64x128, .f32⟩ : BufTy).Contents (Elt Ideal)) (x2 x3 : (⟨S128x128, .f32⟩ : BufTy).Contents (Elt Ideal)) (n : Fin 524288) (j : Fin 128) :
    val_main_v5 (F := Ideal) x0 x1 x2 x3 (ix2 n j) = (act (dense (mat x3) (act (dense (mat x2) (act (dense (mat x1) (row x0 n))))))) j := by
  rw [val_main_v5_apply, val_main_v4_apply, zero2]
  simp only [lidx4, ridx4, layer2]
  rfl
theorem layer4 (x0 : (⟨S524288x64, .f32⟩ : BufTy).Contents (Elt Ideal)) (x1 : (⟨S64x128, .f32⟩ : BufTy).Contents (Elt Ideal)) (x2 x3 x4 : (⟨S128x128, .f32⟩ : BufTy).Contents (Elt Ideal)) (n : Fin 524288) (j : Fin 128) :
    val_main_v7 (F := Ideal) x0 x1 x2 x3 x4 (ix2 n j) = (act (dense (mat x4) (act (dense (mat x3) (act (dense (mat x2) (act (dense (mat x1) (row x0 n))))))))) j := by
  rw [val_main_v7_apply, val_main_v6_apply, zero3]
  simp only [lidx6, ridx6, layer3]
  rfl
theorem layer5 (x0 : (⟨S524288x64, .f32⟩ : BufTy).Contents (Elt Ideal)) (x1 : (⟨S64x128, .f32⟩ : BufTy).Contents (Elt Ideal)) (x2 x3 x4 x5 : (⟨S128x128, .f32⟩ : BufTy).Contents (Elt Ideal)) (n : Fin 524288) (j : Fin 128) :
    val_main_v9 (F := Ideal) x0 x1 x2 x3 x4 x5 (ix2 n j) = (act (dense (mat x5) (act (dense (mat x4) (act (dense (mat x3) (act (dense (mat x2) (act (dense (mat x1) (row x0 n))))))))))) j := by
  rw [val_main_v9_apply, val_main_v8_apply, zero4]
  simp only [lidx8, ridx8, layer4]
  rfl

theorem bias_idx (n : Fin 524288) (o : Fin 16) : idx_main_v11 (idx_main_v12 (ix2 n o)) = ix1 o :=
  funext fun a => Fin.ext (by match a with | ⟨0, _⟩ => rfl)

/-- Entry `(n, o)` of the reference's result. -/
theorem result_apply (x0 : (⟨S524288x64, .f32⟩ : BufTy).Contents (Elt Ideal)) (x1 : (⟨S64x128, .f32⟩ : BufTy).Contents (Elt Ideal)) (x2 x3 x4 x5 : (⟨S128x128, .f32⟩ : BufTy).Contents (Elt Ideal)) (x6 : (⟨S128x16, .f32⟩ : BufTy).Contents (Elt Ideal)) (x7 : (⟨S16, .f32⟩ : BufTy).Contents (Elt Ideal)) (n : Fin 524288) (o : Fin 16) :
    val_main_v13 (F := Ideal) x0 x1 x2 x3 x4 x5 x6 x7 (ix2 n o)
      = net (mat x1) (mat x2) (mat x3) (mat x4) (mat x5) (mat x6) (vec1 x7) (row x0 n) o := by
  rw [val_main_v13_apply, val_main_v10_apply, val_main_v12_apply, val_main_v11_apply, bias_idx]
  simp only [lidx10, ridx10, layer5]
  rfl

/-- The reference's result array is `Gout` of its arguments. -/
theorem result_eq (x0 : (⟨S524288x64, .f32⟩ : BufTy).Contents (Elt Ideal)) (x1 : (⟨S64x128, .f32⟩ : BufTy).Contents (Elt Ideal)) (x2 x3 x4 x5 : (⟨S128x128, .f32⟩ : BufTy).Contents (Elt Ideal)) (x6 : (⟨S128x16, .f32⟩ : BufTy).Contents (Elt Ideal)) (x7 : (⟨S16, .f32⟩ : BufTy).Contents (Elt Ideal)) :
    val_main_v13 (F := Ideal) x0 x1 x2 x3 x4 x5 x6 x7 = Gout x0 x1 x2 x3 x4 x5 x6 x7 := by
  funext i
  obtain ⟨n, o, rfl⟩ : ∃ (n : Fin 524288) (o : Fin 16), i = ix2 n o := ⟨i 0, i 1, eq_ix2 i⟩
  rw [result_apply, Gout_apply]

end Cert.MLP.RefValue

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Payload.lean ====
/-
  What the kernel body stores, entry by entry.

  The body multiplies its block of packed rows by the six (block-diagonal) weight matrices in turn, taking `max · 0`
  after each of the first five, adds the (doubled) bias, and stores the `4096 × 32` result as `1024 × 128` in row-major
  order.  At the extended reals a change of float format is the identity and a matrix product into a zero accumulator
  is the plain sum over the contracted index, so stored entry `(R, L)` is the network — with the loaded matrices as
  they are — on packed row `r` of the block, at position `q`, where `32 r + q = 128 R + L`.
-/
import proofs.«179753_j41927470743708_2_alg».proof.Proof.Gen.KernelIdeal.Skeleton
import proofs.«179753_j41927470743708_2_alg».proof.Proof.MlpSpec
import proofs.«179753_j41927470743708_2_alg».proof.Proof.LibMatmulNN
import Idealize.ShloMosaic.Lib.Pipeline.Value

noncomputable section

namespace Cert.MLP.Payload

open Cert.KernelIdeal Cert.KernelIdeal.Gen Idealize.ShloMosaic Idealize.ShloMosaic.ValueIdx Cert.MLP

/-- The first activated layer on a block: `[4096, 128] · [128, 256]`. -/
def lay1 (h : FVec Ideal S4096x128 .bf16) (w : Vec Ideal S128x256 .bf16) : FVec Ideal S4096x256 .bf16 :=
  truncf .bf16 (maximumf (matmul dot_S4096x128_S128x256_S4096x256_1_0_0_1_n_n none h (shapeCast S128x256 w Facts₀.shapeCasts_S128x256_S128x256 : FVec Ideal S128x256 .bf16)
    (constant S4096x256 .f32 0x00000000#32)) (broadcast S4096x256 (Scalar.ofBits .f32 0x00000000#32))) Facts₀.bitsLt_bf16_f32

/-- A later activated layer on a block: `[4096, 256] · [256, 256]`. -/
def lay2 (h : FVec Ideal S4096x256 .bf16) (w : Vec Ideal S256x256 .bf16) : FVec Ideal S4096x256 .bf16 :=
  truncf .bf16 (maximumf (matmul dot_S4096x256_S256x256_S4096x256_1_0_0_1_n_n none h (shapeCast S256x256 w Facts₀.shapeCasts_S256x256_S256x256 : FVec Ideal S256x256 .bf16)
    (constant S4096x256 .f32 0x00000000#32)) (broadcast S4096x256 (Scalar.ofBits .f32 0x00000000#32))) Facts₀.bitsLt_bf16_f32

theorem lay1_row (h : FVec Ideal S4096x128 .bf16) (w : Vec Ideal S128x256 .bf16) (r : Fin 4096) :
    row (lay1 h w) r = act (dense (mat w) (row h r)) := by
  funext j
  show max (matmul dot_S4096x128_S128x256_S4096x256_1_0_0_1_n_n none h (shapeCast S128x256 w Facts₀.shapeCasts_S128x256_S128x256 : FVec Ideal S128x256 .bf16)
    (constant S4096x256 .f32 0x00000000#32) (ix2 r j)) (Ideal.ofBits .f32 0x00000000#32) = _
  rw [shapeCast_self, Cert.LibMatmulNN.matmul_nn_apply dot_S4096x128_S128x256_S4096x256_1_0_0_1_n_n rfl rfl rfl rfl rfl rfl, Ideal.ofBits_zero_f32]
  rfl

theorem lay2_row (h : FVec Ideal S4096x256 .bf16) (w : Vec Ideal S256x256 .bf16) (r : Fin 4096) :
    row (lay2 h w) r = act (dense (mat w) (row h r)) := by
  funext j
  show max (matmul dot_S4096x256_S256x256_S4096x256_1_0_0_1_n_n none h (shapeCast S256x256 w Facts₀.shapeCasts_S256x256_S256x256 : FVec Ideal S256x256 .bf16)
    (constant S4096x256 .f32 0x00000000#32) (ix2 r j)) (Ideal.ofBits .f32 0x00000000#32) = _
  rw [shapeCast_self, Cert.LibMatmulNN.matmul_nn_apply dot_S4096x256_S256x256_S4096x256_1_0_0_1_n_n rfl rfl rfl rfl rfl rfl, Ideal.ofBits_zero_f32]
  rfl

/-- The five activated layers are the body's second payload. -/
theorem hidden_eq (x0 : Vec Ideal S4096x128 .f32) (x1 : Vec Ideal S128x256 .bf16) (x2 x3 x4 x5 : Vec Ideal S256x256 .bf16) :
    k0_pay2 x0 x1 x2 x3 x4 x5
      = lay2 (lay2 (lay2 (lay2 (lay1 (truncf .bf16 (shapeCast S4096x128 x0 Facts₀.shapeCasts_S4096x128_S4096x128) Facts₀.bitsLt_bf16_f32) x1) x2) x3) x4) x5 := rfl

/-- Packed row `r` after the five activated layers. -/
theorem hidden_row (x0 : Vec Ideal S4096x128 .f32) (x1 : Vec Ideal S128x256 .bf16) (x2 x3 x4 x5 : Vec Ideal S256x256 .bf16) (r : Fin 4096) :
    row (k0_pay2 x0 x1 x2 x3 x4 x5) r
      = act (dense (mat x5) (act (dense (mat x4) (act (dense (mat x3) (act (dense (mat x2) (act (dense (mat x1) (row x0 r)))))))))) := by
  rw [hidden_eq, lay2_row, lay2_row, lay2_row, lay2_row, lay1_row]
  have e : row (truncf .bf16 (shapeCast S4096x128 x0 Facts₀.shapeCasts_S4096x128_S4096x128) Facts₀.bitsLt_bf16_f32 : FVec Ideal S4096x128 .bf16) r = row x0 r := by
    show row (shapeCast S4096x128 x0 Facts₀.shapeCasts_S4096x128_S4096x128) r = row x0 r
    rw [shapeCast_self]
  rw [e]

/-- The last layer, the bias and the row-major re-layout: stored entry `(R, L)` from packed row `r`, position `q`. -/
theorem store_apply (v32 : FVec Ideal S4096x256 .bf16) (v34 : FVec Ideal S256x32 .bf16) (v36 : Vec Ideal S1x32 .f32)
    (R : Fin 1024) (L : Fin 128) (r : Fin 4096) (q : Fin 32) (hrq : r.val * 32 + q.val = R.val * 128 + L.val) :
    k0_pay1 v32 v34 v36 (ix2 R L) = dense (mat v34) (row v32 r) q + v36 (ix2 (0 : Fin 1) q) := by
  unfold k0_pay1
  refine (shapeCast_apply _ Facts₀.shapeCasts_S4096x32_S1024x128 (ix2 R L) (ix2 r q) ?_).trans ?_
  · rw [Shape.rowMajor_val_two, Shape.rowMajor_val_two]
    exact hrq
  · show matmul dot_S4096x256_S256x32_S4096x32_1_0_0_1_n_n none v32 v34 (constant S4096x32 .f32 0x00000000#32) (ix2 r q)
        + broadcastTo S4096x32 (shapeCast S1x32 v36 Facts₀.shapeCasts_S1x32_S1x32) Facts₀.broadcasts_S1x32_S4096x32 (ix2 r q) = _
    rw [Cert.LibMatmulNN.matmul_nn_apply dot_S4096x256_S256x32_S4096x32_1_0_0_1_n_n rfl rfl rfl rfl rfl rfl, shapeCast_self,
      broadcastTo_apply v36 Facts₀.broadcasts_S1x32_S4096x32 (ix2 r q) (ix2 (0 : Fin 1) q)
        (fun a => by match a with | ⟨0, _⟩ => rfl | ⟨1, _⟩ => rfl)]
    rfl

/-- THE STORED ENTRY `(R, L)`: the network with the loaded matrices on packed row `r` of the block, at `q`. -/
theorem stored_apply (x0 : Vec Ideal S4096x128 .f32) (x1 : Vec Ideal S128x256 .bf16) (x2 x3 x4 x5 : Vec Ideal S256x256 .bf16)
    (x6 : Vec Ideal S256x32 .bf16) (x7 : Vec Ideal S1x32 .f32)
    (R : Fin 1024) (L : Fin 128) (r : Fin 4096) (q : Fin 32) (hrq : r.val * 32 + q.val = R.val * 128 + L.val) :
    k0_pay1 (k0_pay2 x0 x1 x2 x3 x4 x5) (k0_pay3 x6) x7 (ix2 R L)
      = net (mat x1) (mat x2) (mat x3) (mat x4) (mat x5) (mat x6) (fun q => x7 (ix2 (0 : Fin 1) q)) (row x0 r) q := by
  rw [store_apply _ _ _ R L r q hrq, hidden_row]
  have e : k0_pay3 x6 = x6 := shapeCast_self x6 _
  rw [e]
  rfl

end Cert.MLP.Payload

end
-- ==== Proof.Packed.lean ====
/-
  Two rows per packed row.

  The kernel works on the input with consecutive rows `2 r` and `2 r + 1` laid side by side as one row of twice the
  width, and on block-diagonal copies `[[W, 0], [0, W]]` of the weights; packed row `r` of its result therefore holds
  the network's outputs for rows `2 r` and `2 r + 1` side by side (`Cert.MLP.net_diag2`).  Four packed rows of width 32
  make one stored row of width 128, and the stored array read in row-major order as 16-wide rows is the result: stored
  entry `(R, L)` is packed entry `(4 R + L / 32, L % 32)`, and result entry `(n, o)` sits at `R = n / 8`,
  `L = 16 (n % 8) + o`, that is at packed row `n / 2`, position `16 (n % 2) + o`: output `o` of row `n`.

  Also here: the host-side layouts read at an index — the block-diagonal matrix built from two concatenations along
  the columns and one along the rows, the bias doubled, and the input with two rows merged into one.
-/
import proofs.«179753_j41927470743708_2_alg».proof.Proof.MlpSpec
import Idealize.ShloMosaic.Lib.Pipeline.Value
import Idealize.ShloMosaic.PureOps.Ideal.Laws

noncomputable section

namespace Cert.MLP

open Idealize.ShloMosaic Idealize.ShloMosaic.ValueIdx

/-! ## The packed result and the stored array -/

section Result

variable (X : (⟨2, ![524288, 64]⟩ : Shape).Idx → EReal) (A0 : (⟨2, ![64, 128]⟩ : Shape).Idx → EReal)
  (A1 A2 A3 A4 : (⟨2, ![128, 128]⟩ : Shape).Idx → EReal) (A5 : (⟨2, ![128, 16]⟩ : Shape).Idx → EReal)
  (b : (⟨1, ![16]⟩ : Shape).Idx → EReal)

/-- Packed row `r` of the result: the network's outputs on rows `2 r` and `2 r + 1`, side by side. -/
def Ppk (r : Fin 262144) : Fin (16 + 16) → EReal :=
  Fin.append (net (mat A0) (mat A1) (mat A2) (mat A3) (mat A4) (mat A5) (vec1 b) (row X ⟨2 * r.val, by omega⟩))
    (net (mat A0) (mat A1) (mat A2) (mat A3) (mat A4) (mat A5) (vec1 b) (row X ⟨2 * r.val + 1, by omega⟩))

/-- Position `16 (n % 2) + o` of packed row `n / 2` is the result's entry `(n, o)`. -/
theorem Ppk_apply (n : Fin 524288) (o : Fin 16) (r : Fin 262144) (q : Fin 32) (hr : r.val = n.val / 2)
    (hq : q.val = 16 * (n.val % 2) + o.val) : Ppk X A0 A1 A2 A3 A4 A5 b r q = Gout X A0 A1 A2 A3 A4 A5 b (ix2 n o) := by
  rw [Gout_apply]
  unfold Ppk
  rw [append_at _ _ q (n.val % 2) o (Nat.mod_lt _ (by decide)) hq]
  by_cases h : n.val % 2 = 0
  · rw [if_pos h]
    have e : (⟨2 * r.val, by omega⟩ : Fin 524288) = n := Fin.ext (by show 2 * r.val = n.val; omega)
    rw [e]
  · rw [if_neg h]
    have e : (⟨2 * r.val + 1, by omega⟩ : Fin 524288) = n := Fin.ext (by show 2 * r.val + 1 = n.val; omega)
    rw [e]

/-- The stored array: entry `(R, L)` is packed entry `(4 R + L / 32, L % 32)`. -/
def Glane : (⟨2, ![65536, 128]⟩ : Shape).Idx → EReal := fun i =>
  Ppk X A0 A1 A2 A3 A4 A5 b
    ⟨4 * (i 0).val + (i 1).val / 32, by
      have h0 : (i 0).val < 65536 := (i 0).isLt
      have h1 : (i 1).val < 128 := (i 1).isLt
      omega⟩
    ⟨(i 1).val % 32, Nat.mod_lt _ (by decide)⟩

theorem Glane_apply (R : Fin 65536) (L : Fin 128) (r : Fin 262144) (q : Fin 32) (hr : r.val = 4 * R.val + L.val / 32)
    (hq : q.val = L.val % 32) : Glane X A0 A1 A2 A3 A4 A5 b (ix2 R L) = Ppk X A0 A1 A2 A3 A4 A5 b r q := by
  have er : r = ⟨4 * R.val + L.val / 32, by omega⟩ := Fin.ext hr
  have eq : q = ⟨L.val % 32, Nat.mod_lt _ (by decide)⟩ := Fin.ext hq
  rw [er, eq]
  rfl

/-- The stored array read in row-major order as 16-wide rows is the result. -/
theorem reshape_Glane (h : (⟨2, ![65536, 128]⟩ : Shape).ShapeCasts ⟨2, ![524288, 16]⟩) :
    shapeCast ⟨2, ![524288, 16]⟩ (Glane X A0 A1 A2 A3 A4 A5 b) h = Gout X A0 A1 A2 A3 A4 A5 b := by
  funext i
  obtain ⟨n, o, rfl⟩ : ∃ (n : Fin 524288) (o : Fin 16), i = ix2 n o := ⟨i 0, i 1, eq_ix2 i⟩
  have hn : n.val < 524288 := n.isLt
  have ho : o.val < 16 := o.isLt
  refine (shapeCast_apply _ h (ix2 n o) (ix2 (⟨n.val / 8, by omega⟩ : Fin 65536) (⟨16 * (n.val % 8) + o.val, by omega⟩ : Fin 128)) ?_).trans ?_
  · rw [Shape.rowMajor_val_two, Shape.rowMajor_val_two]
    show n.val / 8 * 128 + (16 * (n.val % 8) + o.val) = n.val * 16 + o.val
    omega
  · rw [Glane_apply X A0 A1 A2 A3 A4 A5 b _ _ (⟨n.val / 2, by omega⟩ : Fin 262144) (⟨16 * (n.val % 2) + o.val, by omega⟩ : Fin 32)
      (by show n.val / 2 = 4 * (n.val / 8) + (16 * (n.val % 8) + o.val) / 32; omega)
      (by show 16 * (n.val % 2) + o.val = (16 * (n.val % 8) + o.val) % 32; omega)]
    exact Ppk_apply X A0 A1 A2 A3 A4 A5 b n o _ _ rfl rfl

end Result

/-! ## The host-side layouts, read at an index -/

/-- A splat of the zero word is zero everywhere. -/
theorem zero_splat {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  (broadcastInDim_apply ![] h _ i ix0 (fun a => a.elim0)).trans Ideal.ofBits_zero_f32

/-- `[[A, Z], [Z, A]]` with `Z` zero, built by concatenating along the columns and then along the rows, is the
    block-diagonal matrix of `A`. -/
theorem blockdiag_mat {K J : ℕ} (A Z : (⟨2, ![K, J]⟩ : Shape).Idx → EReal) (hZ : ∀ i, Z i = 0)
    (h1 : Shape.Concatenates [⟨2, ![K, J]⟩, ⟨2, ![K, J]⟩] ⟨2, ![K, J + J]⟩ 1)
    (h0 : Shape.Concatenates [⟨2, ![K, J + J]⟩, ⟨2, ![K, J + J]⟩] ⟨2, ![K + K, J + J]⟩ 0) :
    mat (concatenate ⟨2, ![K + K, J + J]⟩ 0
        [⟨⟨2, ![K, J + J]⟩, concatenate ⟨2, ![K, J + J]⟩ 1 [⟨⟨2, ![K, J]⟩, A⟩, ⟨⟨2, ![K, J]⟩, Z⟩] h1⟩,
         ⟨⟨2, ![K, J + J]⟩, concatenate ⟨2, ![K, J + J]⟩ 1 [⟨⟨2, ![K, J]⟩, Z⟩, ⟨⟨2, ![K, J]⟩, A⟩] h1⟩] h0)
      = diag2 (mat A) := by
  funext c j
  unfold mat
  induction c using Fin.addCases with
  | left k =>
    refine (concatenate_pair_apply_left 0 _ _ h0 (ix2 (Fin.castAdd K k) j) rfl (ix2 k j)
      (fun b => by match b with | ⟨0, _⟩ => rfl | ⟨1, _⟩ => rfl)).trans ?_
    induction j using Fin.addCases with
    | left j0 =>
      rw [diag2_ll]
      exact concatenate_pair_apply_left 1 _ _ h1 (ix2 k (Fin.castAdd J j0)) rfl (ix2 k j0)
        (fun b => by match b with | ⟨0, _⟩ => rfl | ⟨1, _⟩ => rfl)
    | right j1 =>
      rw [diag2_lr]
      refine (concatenate_pair_apply_right 1 _ _ h1 (ix2 k (Fin.natAdd J j1)) rfl rfl (ix2 k j1)
        (fun b hb => by match b, hb with | ⟨0, _⟩, _ => rfl | ⟨1, _⟩, hb => exact absurd rfl hb)
        (by show j1.val + J = J + j1.val; omega)).trans (hZ _)
  | right k =>
    refine (concatenate_pair_apply_right 0 _ _ h0 (ix2 (Fin.natAdd K k) j) rfl rfl (ix2 k j)
      (fun b hb => by match b, hb with | ⟨0, _⟩, hb => exact absurd rfl hb | ⟨1, _⟩, _ => rfl)
      (by show k.val + K = K + k.val; omega)).trans ?_
    induction j using Fin.addCases with
    | left j0 =>
      rw [diag2_rl]
      exact (concatenate_pair_apply_left 1 _ _ h1 (ix2 k (Fin.castAdd J j0)) rfl (ix2 k j0)
        (fun b => by match b with | ⟨0, _⟩ => rfl | ⟨1, _⟩ => rfl)).trans (hZ _)
    | right j1 =>
      rw [diag2_rr]
      exact concatenate_pair_apply_right 1 _ _ h1 (ix2 k (Fin.natAdd J j1)) rfl rfl (ix2 k j1)
        (fun b hb => by match b, hb with | ⟨0, _⟩, _ => rfl | ⟨1, _⟩, hb => exact absurd rfl hb)
        (by show j1.val + J = J + j1.val; omega)

/-- The bias doubled (`[b, b]`) and laid as a one-row matrix, read along its row, is `b` twice side by side. -/
theorem bias_pair {J : ℕ} (b : (⟨1, ![J]⟩ : Shape).Idx → EReal)
    (hc : Shape.Concatenates [⟨1, ![J]⟩, ⟨1, ![J]⟩] ⟨1, ![J + J]⟩ 0)
    (hs : (⟨1, ![J + J]⟩ : Shape).ShapeCasts ⟨2, ![1, J + J]⟩) :
    (fun q : Fin (J + J) => shapeCast ⟨2, ![1, J + J]⟩
        (concatenate ⟨1, ![J + J]⟩ 0 [⟨⟨1, ![J]⟩, b⟩, ⟨⟨1, ![J]⟩, b⟩] hc) hs (ix2 (0 : Fin 1) q))
      = Fin.append (vec1 b) (vec1 b) := by
  funext q
  refine (shapeCast_apply _ hs (ix2 (0 : Fin 1) q) (ix1 q) ?_).trans ?_
  · rw [Shape.rowMajor_val_two, Shape.rowMajor_val_one]
    show q.val = 0 * (J + J) + q.val
    omega
  · induction q using Fin.addCases with
    | left o =>
      rw [Fin.append_left]
      exact concatenate_pair_apply_left 0 _ _ hc (ix1 (Fin.castAdd J o)) rfl (ix1 o)
        (fun b => by match b with | ⟨0, _⟩ => rfl)
    | right o =>
      rw [Fin.append_right]
      exact concatenate_pair_apply_right 0 _ _ hc (ix1 (Fin.natAdd J o)) rfl rfl (ix1 o)
        (fun b hb => by match b, hb with | ⟨0, _⟩, hb => exact absurd rfl hb)
        (by show o.val + J = J + o.val; omega)

/-- The input with rows `2 r` and `2 r + 1` merged into one row of twice the width (a row-major reshape): packed
    row `r` is the two rows side by side. -/
theorem merged_rows {N K : ℕ} (X : (⟨2, ![N + N, K]⟩ : Shape).Idx → EReal)
    (hs : (⟨2, ![N + N, K]⟩ : Shape).ShapeCasts ⟨2, ![N, K + K]⟩) (r : Fin N) :
    row (shapeCast ⟨2, ![N, K + K]⟩ X hs) r
      = Fin.append (row X ⟨2 * r.val, by omega⟩) (row X ⟨2 * r.val + 1, by omega⟩) := by
  funext c
  unfold row
  induction c using Fin.addCases with
  | left k =>
    rw [Fin.append_left]
    refine shapeCast_apply _ hs (ix2 r (Fin.castAdd K k)) (ix2 (⟨2 * r.val, by omega⟩ : Fin (N + N)) k) ?_
    rw [Shape.rowMajor_val_two, Shape.rowMajor_val_two]
    show 2 * r.val * K + k.val = r.val * (K + K) + k.val
    rw [Nat.mul_add]; ring
  | right k =>
    rw [Fin.append_right]
    refine shapeCast_apply _ hs (ix2 r (Fin.natAdd K k)) (ix2 (⟨2 * r.val + 1, by omega⟩ : Fin (N + N)) k) ?_
    rw [Shape.rowMajor_val_two, Shape.rowMajor_val_two]
    show (2 * r.val + 1) * K + k.val = r.val * (K + K) + (K + k.val)
    ring

end Cert.MLP

end
-- ==== Proof.Host.lean ====
/-
  The arrays the kernel is launched on, in terms of the program's arguments.

  Before the launch the host merges rows `2 r` and `2 r + 1` of the input into one packed row, builds for each weight
  matrix `W` the block-diagonal `[[W, 0], [0, W]]` (two concatenations along the columns, one along the rows, a change
  of float format that is the identity at the extended reals), and lays the bias twice side by side as a one-row matrix.
-/
import proofs.«179753_j41927470743708_2_alg».proof.Proof.Gen.KernelIdeal.Frame
import proofs.«179753_j41927470743708_2_alg».proof.Proof.Packed
import Idealize.ShloMosaic.Lib.StableHlo.Run

noncomputable section

namespace Cert.MLP.Host

open Cert.KernelIdeal Cert.KernelIdeal.Gen Idealize.ShloMosaic Idealize.ShloMosaic.TcCoe Idealize.ShloMosaic.ValueIdx
open Idealize.ShloMosaic.StableHlo Idealize.SL.Sem Cert.MLP

variable (m : (ℓ : Loc nD τ sig) → Buf (Elt Ideal) ℓ) (c : Dev nD)

/-- The packed input is the input reshaped. -/
theorem V_input : (V m c main_v0 : S262144x128.Idx → EReal)
    = shapeCast S262144x128 (m ((c : Thread nD τ).loc main_arg0)) Facts₀.shapeCasts_S524288x64_S262144x128 := by
  show StableHlo.after hostOps0 (fun b => m (c, b)) (Proc.devRef .tc main_v0) = _
  after_results
  rfl

/-- Packed row `r` of the launched input: rows `2 r` and `2 r + 1` side by side. -/
theorem input_row (r : Fin 262144) :
    row (V m c main_v0 : S262144x128.Idx → EReal) r
      = Fin.append (row ((m ((c : Thread nD τ).loc main_arg0)) : S524288x64.Idx → EReal) ⟨2 * r.val, by omega⟩)
          (row ((m ((c : Thread nD τ).loc main_arg0)) : S524288x64.Idx → EReal) ⟨2 * r.val + 1, by omega⟩) := by
  rw [V_input]
  exact merged_rows (N := 262144) (K := 64) _ _ r

set_option maxHeartbeats 2000000 in
/-- Weight matrix 0 as launched: the block-diagonal matrix of the argument. -/
theorem V_weight0 : (V m c main_v5 : S128x256.Idx → EReal)
    = concatenate S128x256 0
        [⟨S64x256, concatenate S64x256 1 [⟨S64x128, (m ((c : Thread nD τ).loc main_arg1))⟩, ⟨S64x128, (broadcastInDim S64x128 ![] Facts₀.bcast_S_S64x128 (constant (F := Ideal) S_ .f32 0x00000000#32))⟩] Facts₀.concatenates_S64x128_S64x128_S64x256_d1⟩,
         ⟨S64x256, concatenate S64x256 1 [⟨S64x128, (broadcastInDim S64x128 ![] Facts₀.bcast_S_S64x128 (constant (F := Ideal) S_ .f32 0x00000000#32))⟩, ⟨S64x128, (m ((c : Thread nD τ).loc main_arg1))⟩] Facts₀.concatenates_S64x128_S64x128_S64x256_d1⟩] Facts₀.concatenates_S64x256_S64x256_S128x256_d0 := by
  show StableHlo.after hostOps0 (fun b => m (c, b)) (Proc.devRef .tc main_v5) = _
  after_results
  rfl

theorem weight0_mat : mat (V m c main_v5 : S128x256.Idx → EReal) = diag2 (mat ((m ((c : Thread nD τ).loc main_arg1)) : S64x128.Idx → EReal)) := by
  rw [V_weight0]
  exact blockdiag_mat (K := 64) (J := 128) _ _ (fun i => zero_splat _ i) _ _

set_option maxHeartbeats 2000000 in
/-- Weight matrix 1 as launched: the block-diagonal matrix of the argument. -/
theorem V_weight1 : (V m c main_v10 : S256x256.Idx → EReal)
    = concatenate S256x256 0
        [⟨S128x256, concatenate S128x256 1 [⟨S128x128, (m ((c : Thread nD τ).loc main_arg2))⟩, ⟨S128x128, (broadcastInDim S128x128 ![] Facts₀.bcast_S_S128x128 (constant (F := Ideal) S_ .f32 0x00000000#32))⟩] Facts₀.concatenates_S128x128_S128x128_S128x256_d1⟩,
         ⟨S128x256, concatenate S128x256 1 [⟨S128x128, (broadcastInDim S128x128 ![] Facts₀.bcast_S_S128x128 (constant (F := Ideal) S_ .f32 0x00000000#32))⟩, ⟨S128x128, (m ((c : Thread nD τ).loc main_arg2))⟩] Facts₀.concatenates_S128x128_S128x128_S128x256_d1⟩] Facts₀.concatenates_S128x256_S128x256_S256x256_d0 := by
  show StableHlo.after hostOps0 (fun b => m (c, b)) (Proc.devRef .tc main_v10) = _
  after_results
  rfl

theorem weight1_mat : mat (V m c main_v10 : S256x256.Idx → EReal) = diag2 (mat ((m ((c : Thread nD τ).loc main_arg2)) : S128x128.Idx → EReal)) := by
  rw [V_weight1]
  exact blockdiag_mat (K := 128) (J := 128) _ _ (fun i => zero_splat _ i) _ _

set_option maxHeartbeats 2000000 in
/-- Weight matrix 2 as launched: the block-diagonal matrix of the argument. -/
theorem V_weight2 : (V m c main_v15 : S256x256.Idx → EReal)
    = concatenate S256x256 0
        [⟨S128x256, concatenate S128x256 1 [⟨S128x128, (m ((c : Thread nD τ).loc main_arg3))⟩, ⟨S128x128, (broadcastInDim S128x128 ![] Facts₀.bcast_S_S128x128 (constant (F := Ideal) S_ .f32 0x00000000#32))⟩] Facts₀.concatenates_S128x128_S128x128_S128x256_d1⟩,
         ⟨S128x256, concatenate S128x256 1 [⟨S128x128, (broadcastInDim S128x128 ![] Facts₀.bcast_S_S128x128 (constant (F := Ideal) S_ .f32 0x00000000#32))⟩, ⟨S128x128, (m ((c : Thread nD τ).loc main_arg3))⟩] Facts₀.concatenates_S128x128_S128x128_S128x256_d1⟩] Facts₀.concatenates_S128x256_S128x256_S256x256_d0 := by
  show StableHlo.after hostOps0 (fun b => m (c, b)) (Proc.devRef .tc main_v15) = _
  after_results
  rfl

theorem weight2_mat : mat (V m c main_v15 : S256x256.Idx → EReal) = diag2 (mat ((m ((c : Thread nD τ).loc main_arg3)) : S128x128.Idx → EReal)) := by
  rw [V_weight2]
  exact blockdiag_mat (K := 128) (J := 128) _ _ (fun i => zero_splat _ i) _ _

set_option maxHeartbeats 2000000 in
/-- Weight matrix 3 as launched: the block-diagonal matrix of the argument. -/
theorem V_weight3 : (V m c main_v20 : S256x256.Idx → EReal)
    = concatenate S256x256 0
        [⟨S128x256, concatenate S128x256 1 [⟨S128x128, (m ((c : Thread nD τ).loc main_arg4))⟩, ⟨S128x128, (broadcastInDim S128x128 ![] Facts₀.bcast_S_S128x128 (constant (F := Ideal) S_ .f32 0x00000000#32))⟩] Facts₀.concatenates_S128x128_S128x128_S128x256_d1⟩,
         ⟨S128x256, concatenate S128x256 1 [⟨S128x128, (broadcastInDim S128x128 ![] Facts₀.bcast_S_S128x128 (constant (F := Ideal) S_ .f32 0x00000000#32))⟩, ⟨S128x128, (m ((c : Thread nD τ).loc main_arg4))⟩] Facts₀.concatenates_S128x128_S128x128_S128x256_d1⟩] Facts₀.concatenates_S128x256_S128x256_S256x256_d0 := by
  show StableHlo.after hostOps0 (fun b => m (c, b)) (Proc.devRef .tc main_v20) = _
  after_results
  rfl

theorem weight3_mat : mat (V m c main_v20 : S256x256.Idx → EReal) = diag2 (mat ((m ((c : Thread nD τ).loc main_arg4)) : S128x128.Idx → EReal)) := by
  rw [V_weight3]
  exact blockdiag_mat (K := 128) (J := 128) _ _ (fun i => zero_splat _ i) _ _

set_option maxHeartbeats 2000000 in
/-- Weight matrix 4 as launched: the block-diagonal matrix of the argument. -/
theorem V_weight4 : (V m c main_v25 : S256x256.Idx → EReal)
    = concatenate S256x256 0
        [⟨S128x256, concatenate S128x256 1 [⟨S128x128, (m ((c : Thread nD τ).loc main_arg5))⟩, ⟨S128x128, (broadcastInDim S128x128 ![] Facts₀.bcast_S_S128x128 (constant (F := Ideal) S_ .f32 0x00000000#32))⟩] Facts₀.concatenates_S128x128_S128x128_S128x256_d1⟩,
         ⟨S128x256, concatenate S128x256 1 [⟨S128x128, (broadcastInDim S128x128 ![] Facts₀.bcast_S_S128x128 (constant (F := Ideal) S_ .f32 0x00000000#32))⟩, ⟨S128x128, (m ((c : Thread nD τ).loc main_arg5))⟩] Facts₀.concatenates_S128x128_S128x128_S128x256_d1⟩] Facts₀.concatenates_S128x256_S128x256_S256x256_d0 := by
  show StableHlo.after hostOps0 (fun b => m (c, b)) (Proc.devRef .tc main_v25) = _
  after_results
  rfl

theorem weight4_mat : mat (V m c main_v25 : S256x256.Idx → EReal) = diag2 (mat ((m ((c : Thread nD τ).loc main_arg5)) : S128x128.Idx → EReal)) := by
  rw [V_weight4]
  exact blockdiag_mat (K := 128) (J := 128) _ _ (fun i => zero_splat _ i) _ _

set_option maxHeartbeats 2000000 in
/-- Weight matrix 5 as launched: the block-diagonal matrix of the argument. -/
theorem V_weight5 : (V m c main_v30 : S256x32.Idx → EReal)
    = concatenate S256x32 0
        [⟨S128x32, concatenate S128x32 1 [⟨S128x16, (m ((c : Thread nD τ).loc main_arg6))⟩, ⟨S128x16, (broadcastInDim S128x16 ![] Facts₀.bcast_S_S128x16 (constant (F := Ideal) S_ .f32 0x00000000#32))⟩] Facts₀.concatenates_S128x16_S128x16_S128x32_d1⟩,
         ⟨S128x32, concatenate S128x32 1 [⟨S128x16, (broadcastInDim S128x16 ![] Facts₀.bcast_S_S128x16 (constant (F := Ideal) S_ .f32 0x00000000#32))⟩, ⟨S128x16, (m ((c : Thread nD τ).loc main_arg6))⟩] Facts₀.concatenates_S128x16_S128x16_S128x32_d1⟩] Facts₀.concatenates_S128x32_S128x32_S256x32_d0 := by
  show StableHlo.after hostOps0 (fun b => m (c, b)) (Proc.devRef .tc main_v30) = _
  after_results
  rfl

theorem weight5_mat : mat (V m c main_v30 : S256x32.Idx → EReal) = diag2 (mat ((m ((c : Thread nD τ).loc main_arg6)) : S128x16.Idx → EReal)) := by
  rw [V_weight5]
  exact blockdiag_mat (K := 128) (J := 16) _ _ (fun i => zero_splat _ i) _ _

set_option maxHeartbeats 2000000 in
/-- The bias as launched: the argument twice, as a one-row matrix. -/
theorem V_bias : (V m c main_v32 : S1x32.Idx → EReal)
    = shapeCast S1x32 (concatenate S32 0 [⟨S16, (m ((c : Thread nD τ).loc main_arg7))⟩, ⟨S16, (m ((c : Thread nD τ).loc main_arg7))⟩] Facts₀.concatenates_S16_S16_S32_d0)
        Facts₀.shapeCasts_S32_S1x32 := by
  show StableHlo.after hostOps0 (fun b => m (c, b)) (Proc.devRef .tc main_v32) = _
  after_results
  rfl

theorem bias_row : (fun q : Fin 32 => (V m c main_v32 : S1x32.Idx → EReal) (ix2 (0 : Fin 1) q))
    = Fin.append (vec1 ((m ((c : Thread nD τ).loc main_arg7)) : S16.Idx → EReal)) (vec1 ((m ((c : Thread nD τ).loc main_arg7)) : S16.Idx → EReal)) := by
  rw [V_bias]
  exact bias_pair (J := 16) _ _ _

end Cert.MLP.Host

end
-- ==== Proof.Blocks.lean ====
/-
  From the blocks to the stored array.

  Grid point `t` is handed packed rows `4096 t … 4096 t + 4095` of the input and the whole of every weight matrix and of
  the bias, and writes back rows `1024 t … 1024 t + 1023` of the stored array.  With the launched arrays read in terms of
  the arguments, what point `t` writes back is block `t` of one function of the arguments (`Cert.MLP.Glane`): stored entry
  `(1024 t + R, L)` comes from packed row `4096 t + 4 R + L / 32 = 4 (1024 t + R) + L / 32`.  The 64 blocks tile the
  stored array, so after the run it is that function.
-/
import proofs.«179753_j41927470743708_2_alg».proof.Proof.Gen.KernelIdeal.Frame
import proofs.«179753_j41927470743708_2_alg».proof.Proof.Payload
import proofs.«179753_j41927470743708_2_alg».proof.Proof.Host
import proofs.«179753_j41927470743708_2_alg».proof.Proof.Packed
import Idealize.ShloMosaic.Lib.Pipeline.Value

set_option maxRecDepth 16384

noncomputable section

namespace Cert.MLP.Blocks

open Cert.KernelIdeal Cert.KernelIdeal.Gen Idealize.ShloMosaic Idealize.ShloMosaic.TcCoe Idealize.ShloMosaic.ValueIdx
open Idealize.SL.Sem Cert.MLP
open Idealize.ShloMosaic.Pipeline (Dat)

variable (m : (ℓ : Loc nD τ sig) → Buf (Elt Ideal) ℓ) (c : Dev nD)

/-- The stored array as a function of the arguments. -/
abbrev Gstore : S65536x128.Idx → EReal :=
  Glane ((m ((c : Thread nD τ).loc main_arg0)) : S524288x64.Idx → EReal)
    ((m ((c : Thread nD τ).loc main_arg1)) : S64x128.Idx → EReal)
    ((m ((c : Thread nD τ).loc main_arg2)) : S128x128.Idx → EReal)
    ((m ((c : Thread nD τ).loc main_arg3)) : S128x128.Idx → EReal)
    ((m ((c : Thread nD τ).loc main_arg4)) : S128x128.Idx → EReal)
    ((m ((c : Thread nD τ).loc main_arg5)) : S128x128.Idx → EReal)
    ((m ((c : Thread nD τ).loc main_arg6)) : S128x16.Idx → EReal)
    ((m ((c : Thread nD τ).loc main_arg7)) : S16.Idx → EReal)

theorem hz : (![0, 0] : Fin 2 → Nat) = fun _ => 0 := funext fun a => by fin_cases a <;> rfl

theorem lt_N (t : Fin cfg0.N) : t.val < 64 := lt_of_lt_of_eq t.isLt N_0

/-- The index maps over the grid: the input's and the output's block index is the point, every other window stays at
    its one block. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0 :=
  (by decide +kernel : ∀ t : Fin grid0.N, _)

/-! ## The blocks the body reads -/

/-- Packed row `r` of point `t`'s input block is packed row `4096 t + r` of the launched input. -/
theorem in_row (t : Fin cfg0.N) (r : Fin 4096) :
    row (iblk m c 0 t : S4096x128.Idx → EReal) r
      = row (V m c main_v0 : S262144x128.Idx → EReal) ⟨t.val * 4096 + r.val, by have := lt_N t; omega⟩ := by
  funext k
  show V m c main_v0 (((cfg0.win 0).blk t).view.emb (ix2 r k)) = V m c main_v0 (ix2 _ k)
  refine congrArg _ (funext fun a => Fin.ext ?_)
  have e := idx_facts t
  match a with
  | ⟨0, _⟩ => show win0_0.index t (0 : Fin 2) * 4096 + 1 * r.val = t.val * 4096 + r.val; rw [e.1]; omega
  | ⟨1, _⟩ => show win0_0.index t (1 : Fin 2) * 128 + 1 * k.val = k.val; rw [e.2.1]; omega

/-- Weight matrix 0 is handed to every point whole. -/
theorem w0_mat (t : Fin cfg0.N) :
    mat (iblk m c 1 t : S128x256.Idx → EReal) = mat (V m c main_v5 : S128x256.Idx → EReal) := by
  funext k j
  show V m c main_v5 (((cfg0.win 1).blk t).view.emb (ix2 k j)) = V m c main_v5 (ix2 k j)
  refine congrArg _ (funext fun a => Fin.ext ?_)
  have e := idx_facts t
  match a with
  | ⟨0, _⟩ => show win0_1.index t (0 : Fin 2) * 128 + 1 * k.val = k.val; rw [e.2.2.1]; omega
  | ⟨1, _⟩ => show win0_1.index t (1 : Fin 2) * 256 + 1 * j.val = j.val; rw [e.2.2.2.1]; omega

/-- Weight matrix 1 is handed to every point whole. -/
theorem w1_mat (t : Fin cfg0.N) :
    mat (iblk m c 2 t : S256x256.Idx → EReal) = mat (V m c main_v10 : S256x256.Idx → EReal) := by
  funext k j
  show V m c main_v10 (((cfg0.win 2).blk t).view.emb (ix2 k j)) = V m c main_v10 (ix2 k j)
  refine congrArg _ (funext fun a => Fin.ext ?_)
  have e := idx_facts t
  match a with
  | ⟨0, _⟩ => show win0_2.index t (0 : Fin 2) * 256 + 1 * k.val = k.val; rw [e.2.2.2.2.1]; omega
  | ⟨1, _⟩ => show win0_2.index t (1 : Fin 2) * 256 + 1 * j.val = j.val; rw [e.2.2.2.2.2.1]; omega

/-- Weight matrix 2 is handed to every point whole. -/
theorem w2_mat (t : Fin cfg0.N) :
    mat (iblk m c 3 t : S256x256.Idx → EReal) = mat (V m c main_v15 : S256x256.Idx → EReal) := by
  funext k j
  show V m c main_v15 (((cfg0.win 3).blk t).view.emb (ix2 k j)) = V m c main_v15 (ix2 k j)
  refine congrArg _ (funext fun a => Fin.ext ?_)
  have e := idx_facts t
  match a with
  | ⟨0, _⟩ => show win0_3.index t (0 : Fin 2) * 256 + 1 * k.val = k.val; rw [e.2.2.2.2.2.2.1]; omega
  | ⟨1, _⟩ => show win0_3.index t (1 : Fin 2) * 256 + 1 * j.val = j.val; rw [e.2.2.2.2.2.2.2.1]; omega

/-- Weight matrix 3 is handed to every point whole. -/
theorem w3_mat (t : Fin cfg0.N) :
    mat (iblk m c 4 t : S256x256.Idx → EReal) = mat (V m c main_v20 : S256x256.Idx → EReal) := by
  funext k j
  show V m c main_v20 (((cfg0.win 4).blk t).view.emb (ix2 k j)) = V m c main_v20 (ix2 k j)
  refine congrArg _ (funext fun a => Fin.ext ?_)
  have e := idx_facts t
  match a with
  | ⟨0, _⟩ => show win0_4.index t (0 : Fin 2) * 256 + 1 * k.val = k.val; rw [e.2.2.2.2.2.2.2.2.1]; omega
  | ⟨1, _⟩ => show win0_4.index t (1 : Fin 2) * 256 + 1 * j.val = j.val; rw [e.2.2.2.2.2.2.2.2.2.1]; omega

/-- Weight matrix 4 is handed to every point whole. -/
theorem w4_mat (t : Fin cfg0.N) :
    mat (iblk m c 5 t : S256x256.Idx → EReal) = mat (V m c main_v25 : S256x256.Idx → EReal) := by
  funext k j
  show V m c main_v25 (((cfg0.win 5).blk t).view.emb (ix2 k j)) = V m c main_v25 (ix2 k j)
  refine congrArg _ (funext fun a => Fin.ext ?_)
  have e := idx_facts t
  match a with
  | ⟨0, _⟩ => show win0_5.index t (0 : Fin 2) * 256 + 1 * k.val = k.val; rw [e.2.2.2.2.2.2.2.2.2.2.1]; omega
  | ⟨1, _⟩ => show win0_5.index t (1 : Fin 2) * 256 + 1 * j.val = j.val; rw [e.2.2.2.2.2.2.2.2.2.2.2.1]; omega

/-- Weight matrix 5 is handed to every point whole. -/
theorem w5_mat (t : Fin cfg0.N) :
    mat (iblk m c 6 t : S256x32.Idx → EReal) = mat (V m c main_v30 : S256x32.Idx → EReal) := by
  funext k j
  show V m c main_v30 (((cfg0.win 6).blk t).view.emb (ix2 k j)) = V m c main_v30 (ix2 k j)
  refine congrArg _ (funext fun a => Fin.ext ?_)
  have e := idx_facts t
  match a with
  | ⟨0, _⟩ => show win0_6.index t (0 : Fin 2) * 256 + 1 * k.val = k.val; rw [e.2.2.2.2.2.2.2.2.2.2.2.2.1]; omega
  | ⟨1, _⟩ => show win0_6.index t (1 : Fin 2) * 32 + 1 * j.val = j.val; rw [e.2.2.2.2.2.2.2.2.2.2.2.2.2.1]; omega

/-- So is the bias row. -/
theorem bias_blk (t : Fin cfg0.N) :
    (fun q : Fin 32 => (iblk m c 7 t : S1x32.Idx → EReal) (ix2 (0 : Fin 1) q))
      = fun q : Fin 32 => (V m c main_v32 : S1x32.Idx → EReal) (ix2 (0 : Fin 1) q) := by
  funext q
  show V m c main_v32 (((cfg0.win 7).blk t).view.emb (ix2 (0 : Fin 1) q)) = V m c main_v32 (ix2 (0 : Fin 1) q)
  refine congrArg _ (funext fun a => Fin.ext ?_)
  have e := idx_facts t
  match a with
  | ⟨0, _⟩ => show win0_7.index t (0 : Fin 2) * 1 + 1 * 0 = 0; rw [e.2.2.2.2.2.2.2.2.2.2.2.2.2.2.1]
  | ⟨1, _⟩ => show win0_7.index t (1 : Fin 2) * 32 + 1 * q.val = q.val; rw [e.2.2.2.2.2.2.2.2.2.2.2.2.2.2.2.1]; omega

/-- Row `R` of point `t`'s output block is row `1024 t + R` of the stored array. -/
theorem out_emb (t : Fin cfg0.N) (R : Fin 1024) (L : Fin 128) :
    ((cfg0.win 8).blk t).view.emb (ix2 R L) = ix2 (⟨t.val * 1024 + R.val, by have := lt_N t; omega⟩ : Fin 65536) L := by
  refine funext fun a => Fin.ext ?_
  have e := idx_facts t
  match a with
  | ⟨0, _⟩ => show win0_8.index t (0 : Fin 2) * 1024 + 1 * R.val = t.val * 1024 + R.val; rw [e.2.2.2.2.2.2.2.2.2.2.2.2.2.2.2.2.1]; omega
  | ⟨1, _⟩ => show win0_8.index t (1 : Fin 2) * 128 + 1 * L.val = L.val; rw [e.2.2.2.2.2.2.2.2.2.2.2.2.2.2.2.2.2]; omega

/-! ## What a point writes back -/

/-- WHAT POINT `t` WRITES BACK is block `t` of `Gstore`. -/
theorem flushed_eq (t : Fin cfg0.N) :
    (dats m 0 c).flushed 8 t = ((cfg0.win 8).blk t).view.read (Elt Ideal) (Gstore m c) := by
  show (cfg0.win 8).cut (grid0.coords t) ((dats m 0 c).after 8 t) = _
  rw [after0_8]
  unfold out0_8
  rw [View.canon_unit_zero hz]
  simp only [View.ld_unit_zero (S := S4096x128) hz, View.ld_unit_zero (S := S128x256) hz, View.ld_unit_zero (S := S256x256) hz,
    View.ld_unit_zero (S := S256x32) hz, View.ld_unit_zero (S := S1x32) hz]
  funext j
  obtain ⟨R, L, rfl⟩ : ∃ (R : Fin 1024) (L : Fin 128), j = ix2 R L := ⟨j 0, j 1, eq_ix2 j⟩
  have hR := R.isLt
  have hL := L.isLt
  have ht := lt_N t
  refine (Payload.stored_apply (iblk m c 0 t) (iblk m c 1 t) (iblk m c 2 t) (iblk m c 3 t) (iblk m c 4 t) (iblk m c 5 t)
    (iblk m c 6 t) (iblk m c 7 t) R L (⟨4 * R.val + L.val / 32, by omega⟩ : Fin 4096) (⟨L.val % 32, Nat.mod_lt _ (by decide)⟩ : Fin 32)
    (by show (4 * R.val + L.val / 32) * 32 + L.val % 32 = R.val * 128 + L.val; omega)).trans ?_
  rw [w0_mat m c t, w1_mat m c t, w2_mat m c t, w3_mat m c t, w4_mat m c t, w5_mat m c t, bias_blk m c t, in_row m c t,
    Host.weight0_mat, Host.weight1_mat, Host.weight2_mat, Host.weight3_mat, Host.weight4_mat, Host.weight5_mat,
    Host.bias_row, Host.input_row, net_diag2]
  show _ = Gstore m c (((cfg0.win 8).blk t).view.emb (ix2 R L))
  rw [out_emb t R L]
  unfold Gstore
  rw [Glane_apply _ _ _ _ _ _ _ _ _ _ (⟨t.val * 4096 + (4 * R.val + L.val / 32), by omega⟩ : Fin 262144)
    (⟨L.val % 32, Nat.mod_lt _ (by decide)⟩ : Fin 32)
    (by show t.val * 4096 + (4 * R.val + L.val / 32) = 4 * (t.val * 1024 + R.val) + L.val / 32; omega) rfl]
  rfl

/-! ## The cover -/

/-- An index of the stored array is in point `t`'s block iff each coordinate is in the block's range on its axis. -/
theorem mem_blk (t : Fin cfg0.N) (i : S65536x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v33).slice (win0_8.rect t)).set ↔ _
  rw [View.set_slice_whole, Rect.mem_set_unit]
  exact Iff.rfl

/-- Row `R` of the stored array is written back by point `R / 1024`. -/
theorem cover (i : S65536x128.Idx) :
    ∃ t : Fin cfg0.N, (cfg0.win 8).flush t = true ∧ i ∈ ((cfg0.win 8).blk t).view.set := by
  have hi0 : (i 0).val < 65536 := (i 0).isLt
  have hi1 : (i 1).val < 128 := (i 1).isLt
  have hN : (i 0).val / 1024 < cfg0.N := by rw [show cfg0.N = 64 from N_0]; omega
  refine ⟨⟨(i 0).val / 1024, hN⟩, flush0_8 _, ?_⟩
  rw [mem_blk]
  have e := idx_facts ⟨(i 0).val / 1024, hN⟩
  intro a
  match a with
  | ⟨0, _⟩ =>
    show win0_8.index ⟨(i 0).val / 1024, hN⟩ (0 : Fin 2) * 1024 ≤ (i 0).val ∧ (i 0).val < win0_8.index ⟨(i 0).val / 1024, hN⟩ (0 : Fin 2) * 1024 + 1024
    rw [e.2.2.2.2.2.2.2.2.2.2.2.2.2.2.2.2.1]
    show (i 0).val / 1024 * 1024 ≤ (i 0).val ∧ (i 0).val < (i 0).val / 1024 * 1024 + 1024
    omega
  | ⟨1, _⟩ =>
    show win0_8.index ⟨(i 0).val / 1024, hN⟩ (1 : Fin 2) * 128 ≤ (i 1).val ∧ (i 1).val < win0_8.index ⟨(i 0).val / 1024, hN⟩ (1 : Fin 2) * 128 + 128
    rw [e.2.2.2.2.2.2.2.2.2.2.2.2.2.2.2.2.2]
    omega

/-- THE STORED ARRAY after the run. -/
theorem final (c : Dev nD) : (dats m 0 c).arrAt 8 cfg0.N = Gstore m c :=
  (dats m 0 c).arrAt_eq_of_cover 8 (Gstore m c) (fun t _ => flushed_eq m c t) (cover)

end Cert.MLP.Blocks

end
-- ==== Proof.KernelRun.lean ====
/-
  The kernel's whole program: its result is the network applied row by row.

  After the launch the stored `65536 × 128` array is one function of the arguments (`Cert.MLP.Blocks.final`); the one
  host line after the launch reads it in row-major order as `524288 × 16`, which is the result `Gout`
  (`Cert.MLP.reshape_Glane`).  The arguments end as they were.
-/
import proofs.«179753_j41927470743708_2_alg».proof.Proof.Gen.KernelIdeal.Frame
import proofs.«179753_j41927470743708_2_alg».proof.Proof.Blocks
import proofs.«179753_j41927470743708_2_alg».proof.Proof.Packed
import Idealize.ShloMosaic.Lib.StableHlo.Run

noncomputable section

namespace Cert.MLP.KernelRun

open Cert.KernelIdeal Cert.KernelIdeal.Gen Idealize.ShloMosaic Idealize.ShloMosaic.TcCoe Idealize.ShloMosaic.ValueIdx
open Idealize.ShloMosaic.StableHlo Idealize.SL.Sem Cert.MLP

variable (m : (ℓ : Loc nD τ sig) → Buf (Elt Ideal) ℓ) (ρ : Dev nD → PrngReg)

/-- The result as a function of the arguments. -/
abbrev Gres (c : Dev nD) : S524288x16.Idx → EReal :=
  Gout (m ((c.tc : Thread nD τ).loc main_arg0) : S524288x64.Idx → EReal)
    (m ((c.tc : Thread nD τ).loc main_arg1) : S64x128.Idx → EReal)
    (m ((c.tc : Thread nD τ).loc main_arg2) : S128x128.Idx → EReal)
    (m ((c.tc : Thread nD τ).loc main_arg3) : S128x128.Idx → EReal)
    (m ((c.tc : Thread nD τ).loc main_arg4) : S128x128.Idx → EReal)
    (m ((c.tc : Thread nD τ).loc main_arg5) : S128x128.Idx → EReal)
    (m ((c.tc : Thread nD τ).loc main_arg6) : S128x16.Idx → EReal)
    (m ((c.tc : Thread nD τ).loc main_arg7) : S16.Idx → EReal)

/-- The stored array when the host line after the launch runs. -/
theorem stored (c : Dev nD) :
    Pipeline.withArrays spec0 c (V0 m c) (fun w => (dats m 0 c).arrAt w cfg0.N) (Proc.devRef .tc main_v33) = Blocks.Gstore m c :=
  (Pipeline.withArrays_arr spec0 launch0.win.arr_inj c _ _ 8).trans (Blocks.final m c)

/-- The program's result buffer after the run. -/
theorem tail_eq (c : Dev nD) :
    Pipeline.afterTail₀ cfgs (dats m) 0 (V0 m) [hostOps1] c main_v34 = Gres m c := by
  unfold Pipeline.afterTail₀
  show StableHlo.after hostOps1 _ (Proc.devRef .tc main_v34) = _
  after_results
  show shapeCast S524288x16 (Pipeline.withArrays spec0 c (V0 m c) (fun w => (dats m 0 c).arrAt w cfg0.N) (Proc.devRef .tc main_v33))
    Facts₀.shapeCasts_S65536x128_S524288x16 = _
  rw [stored m c]
  exact reshape_Glane _ _ _ _ _ _ _ _ _

/-- Every weakly fair execution of the kernel's program terminates with the result at `Gres` of the arguments and the
    arguments unchanged. -/
theorem run : θ_run defs (onTc (τ := τ) (main (F := Ideal))) ⟨m, fun _ => 0, ρ⟩ (fun r => ∀ c : Dev nD,
      r.2.mem ((c.tc : Thread nD τ).loc main_v34) = Gres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.MLP.KernelRun

end
-- ==== Proof.lean ====
/-
  The certificate of a six-layer perceptron kernel against its plain reference, over the extended reals.

  The reference multiplies the `524288 × 64` input by six weight matrices in turn, taking `max · 0` after each of the
  first five, and adds a bias.  The kernel computes the same rows two at a time: it merges rows `2 r` and `2 r + 1`
  into one packed row, uses block-diagonal copies `[[W, 0], [0, W]]` of the weights and the bias twice side by side,
  works block by block over 64 grid points, stores four packed result rows per 128-wide row, and reads the stored
  array back as `524288 × 16`.  The zero blocks contribute `v · 0 = 0` to every sum, so a packed row's result is the
  two rows' results side by side (`Cert.MLP.net_diag2`), and position `16 (n % 2) + o` of packed row `n / 2` is entry
  `(n, o)` of the reference's result (`Cert.MLP.Ppk_apply`, `Cert.MLP.reshape_Glane`).  Nothing here needs the inputs
  to be finite: only that `0` annihilates products and is neutral for sums, which holds at every extended real.

  The three frames come from the generated runs; the idealization rewrote nothing, so the preservation claim is `True`.
-/
import proofs.«179753_j41927470743708_2_alg».proof.Defs
import proofs.«179753_j41927470743708_2_alg».proof.Proof.Gen.Kernel
import proofs.«179753_j41927470743708_2_alg».proof.Proof.Gen.Kernel.Skeleton
import proofs.«179753_j41927470743708_2_alg».proof.Proof.Gen.Kernel.Launch
import proofs.«179753_j41927470743708_2_alg».proof.Proof.Gen.Kernel.Points
import proofs.«179753_j41927470743708_2_alg».proof.Proof.Gen.Kernel.Frame
import proofs.«179753_j41927470743708_2_alg».proof.Proof.Gen.KernelIdeal
import proofs.«179753_j41927470743708_2_alg».proof.Proof.Gen.KernelIdeal.Skeleton
import proofs.«179753_j41927470743708_2_alg».proof.Proof.Gen.KernelIdeal.Launch
import proofs.«179753_j41927470743708_2_alg».proof.Proof.Gen.KernelIdeal.Points
import proofs.«179753_j41927470743708_2_alg».proof.Proof.Gen.KernelIdeal.Frame
import proofs.«179753_j41927470743708_2_alg».proof.Proof.Gen.ReferenceIdeal
import proofs.«179753_j41927470743708_2_alg».proof.Proof.Gen.Pre_finite_inputs
import proofs.«179753_j41927470743708_2_alg».proof.Proof.Gen.ReferenceIdeal.Run
import proofs.«179753_j41927470743708_2_alg».proof.Proof.Gen.ReferenceIdeal.Read
import proofs.«179753_j41927470743708_2_alg».proof.Proof.RefValue
import proofs.«179753_j41927470743708_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network applied row by row. -/
theorem algebraic : Cert.algebraic_KernelIdeal_ReferenceIdeal := by
  intro m ρ m' ρ' _ hagree
  refine ⟨fun c => Cert.MLP.KernelRun.Gres m c, Cert.MLP.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.MLP.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
